-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S32x512x1024 : Shape := ⟨3, ![32, 512, 1024]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S32x512x1024 : S_.BroadcastsInDim S32x512x1024 (![] : Fin 0 → Fin S32x512x1024.rank)
  reducesTo_S32x512x1024_S_d0_1_2 : S32x512x1024.ReducesTo [0, 1, 2] S_

variable [Facts]

def fn {F : FTy → Type} [FloatOps F] (main_arg0 : FVec F S32x2048x512 .f32) (main_arg1 : FVec F S32x512x1024 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S32x512x1024 .f32 := Host.absf main_arg1
  let main_cst_0 : FVec F S_ .f32 := constant S_ .f32 0x7F800000#32
  let main_v5 : FVec F S32x512x1024 .f32 := broadcastInDim S32x512x1024 ![] bcast_S_S32x512x1024 main_cst_0
  let main_v6 : IVec S32x512x1024 1 := cmpf .olt main_v4 main_v5
  let main_c_1 : IVec S_ 1 := constantI S_ 1 1#1
  let main_v7 : IVec S_ 1 := (fun x v => Host.reduce IntOp.andi x v reducesTo_S32x512x1024_S_d0_1_2 h_S_) main_v6 main_c_1
  let main_v8 : IVec S_ 1 := andi main_v3 main_v7
  main_v8
-- ==== Kernel.lean ====
abbrev S32x2048x512 : Shape := ⟨3, ![32, 2048, 512]⟩
abbrev S32x512x1024 : Shape := ⟨3, ![32, 512, 1024]⟩
abbrev S32x2048x1024 : Shape := ⟨3, ![32, 2048, 1024]⟩
abbrev S1x1024x512 : Shape := ⟨3, ![1, 1024, 512]⟩
abbrev S1x512x1024 : Shape := ⟨3, ![1, 512, 1024]⟩
abbrev S1x1024x1024 : Shape := ⟨3, ![1, 1024, 1024]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S32x2048x512, .f32⟩
  | .hbm, ⟨1, _⟩ => ⟨S32x512x1024, .f32⟩
  | .hbm, ⟨2, _⟩ => ⟨S32x2048x1024, .f32⟩
  | .local _ .vmem, ⟨0, _⟩ => ⟨S1x1024x512, .f32⟩
  | .local _ .vmem, ⟨1, _⟩ => ⟨S1x1024x512, .f32⟩
  | .local _ .vmem, ⟨2, _⟩ => ⟨S1x512x1024, .f32⟩
  | .local _ .vmem, ⟨3, _⟩ => ⟨S1x512x1024, .f32⟩
  | .local _ .vmem, ⟨4, _⟩ => ⟨S1x1024x1024, .f32⟩
  | .local _ .vmem, ⟨5, _⟩ => ⟨S1x1024x1024, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x2048x512.size a
  hwx0_0 : ∀ i : grid0.Coords, EltTy.bits .f32 = 32 ∨ (Rect.block (s := S32x2048x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x512x1024.size a
  hwx0_1 : ∀ i : grid0.Coords, EltTy.bits .f32 = 32 ∨ (Rect.block (s := S32x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S32x2048x1024.size a
  hwx0_2 : ∀ i : grid0.Coords, EltTy.bits .f32 = 32 ∨ (Rect.block (s := S32x2048x1024) S1x1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048x512 : Shape := ⟨3, ![32, 2048, 512]⟩
abbrev S32x512x1024 : Shape := ⟨3, ![32, 512, 1024]⟩
abbrev S_ : Shape := ⟨0, ![]⟩
abbrev S32x2048 : Shape := ⟨2, ![32, 2048]⟩
abbrev S32x2048x1 : Shape := ⟨3, ![32, 2048, 1]⟩
abbrev S32x2048x1024 : Shape := ⟨3, ![32, 2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x512x1024, .f32⟩
  | .hbm, ⟨2, _⟩ => ⟨S_, .f32⟩
  | .hbm, ⟨3, _⟩ => ⟨S32x2048, .f32⟩
  | .hbm, ⟨4, _⟩ => ⟨S_, .f32⟩
  | .hbm, ⟨5, _⟩ => ⟨S32x2048, .f32⟩
  | .hbm, ⟨6, _⟩ => ⟨S32x2048, .f32⟩
  | .hbm, ⟨7, _⟩ => ⟨S32x2048x1, .f32⟩
  | .hbm, ⟨8, _⟩ => ⟨S32x2048x512, .f32⟩
  | .hbm, ⟨9, _⟩ => ⟨S32x2048x512, .f32⟩
  | .hbm, ⟨10, _⟩ => ⟨S32x2048x512, .f32⟩
  | .hbm, ⟨11, _⟩ => ⟨S_, .f32⟩
  | .hbm, ⟨12, _⟩ => ⟨S32x2048, .f32⟩
  | .hbm, ⟨13, _⟩ => ⟨S32x2048x1, .f32⟩
  | .hbm, ⟨14, _⟩ => ⟨S32x2048x512, .f32⟩
  | .hbm, ⟨15, _⟩ => ⟨S32x2048x512, .f32⟩
  | .hbm, ⟨16, _⟩ => ⟨S32x2048x1024, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S32x2048x512_S32x2048_d2 : S32x2048x512.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x512_0_1_2 : S32x2048x1.BroadcastsInDim S32x2048x512 (![0, 1, 2] : Fin 3 → Fin S32x2048x512.rank)
  dot_S32x2048x512_S32x512x1024_S32x2048x1024_2_1_1_2_0_0_wf : DotDims.WF S32x2048x512 S32x512x1024 S32x2048x1024 [2] [1] [1] [2] [0] [0]

variable [Facts₀]

def dot_S32x2048x512_S32x512x1024_S32x2048x1024_2_1_1_2_0_0 : DotDims S32x2048x512 S32x512x1024 S32x2048x1024 where
  lhsContracting := [2]
  rhsContracting := [1]
  lhsNonContracting := [1]
  rhsNonContracting := [2]
  lhsBatch := [0]
  rhsBatch := [0]
  wf := dot_S32x2048x512_S32x512x1024_S32x2048x1024_2_1_1_2_0_0_wf

class Facts : Prop extends Facts₀ where

variable [Facts]
-- ==== Proof.Attend.lean ====
/-
  Context-to-query attention, one output entry at a time, on the extended reals with exact operations.

  A row `r` of 512 scores is turned into weights: with `M` the largest score of the row (the fold of `max` from −∞),
  the weight of position `q` is `exp (r q − M) / Σ_k exp (r k − M)`. The output entry for that row against a column
  `col` of 512 encodings is `Σ_q weight q · col q`. Over the whole arrays, entry `(b, c, d)` of the result uses row
  `(b, c, ·)` of the scores and column `(b, ·, d)` of the encodings.
-/
import Idealize.ShloMosaic.PureOps.Ideal
import Idealize.ShloMosaic.Lib.ValueIdx

noncomputable section

open scoped BigOperators

namespace Cert.Attend

open Idealize.ShloMosaic Idealize.ShloMosaic.ValueIdx

/-- The largest score of a row: the fold of `max` over its 512 entries, started at the value of the word for −∞. -/
def rowMax (r : Fin 512 → EReal) : EReal :=
  (Finset.univ : Finset (Fin 512)).fold max (Ideal.ofBits .f32 0xFF800000#32) r

/-- The exponential of a score less the row's largest score. -/
def shifted (r : Fin 512 → EReal) (q : Fin 512) : EReal := Ideal.exp (r q - rowMax r)

/-- The weight of position `q` in its row: its shifted exponential over the sum of the row's. -/
def weight (r : Fin 512 → EReal) (q : Fin 512) : EReal := Ideal.div (shifted r q) (∑ k : Fin 512, shifted r k)

/-- One output entry: the row's weights against a column of encodings. -/
def attend (r col : Fin 512 → EReal) : EReal := ∑ q : Fin 512, weight r q * col q

/-- Entry `(b, c, d)` of the result: row `(b, c, ·)` of the scores against column `(b, ·, d)` of the encodings. -/
def entry (s : (⟨3, ![32, 2048, 512]⟩ : Shape).Idx → EReal) (e : (⟨3, ![32, 512, 1024]⟩ : Shape).Idx → EReal)
    (b : Fin 32) (c : Fin 2048) (d : Fin 1024) : EReal :=
  attend (fun q => s (ix3 b c q)) (fun q => e (ix3 b q d))

/-- The whole result array as one function of the two argument arrays. -/
def result (s : (⟨3, ![32, 2048, 512]⟩ : Shape).Idx → EReal) (e : (⟨3, ![32, 512, 1024]⟩ : Shape).Idx → EReal) :
    (⟨3, ![32, 2048, 1024]⟩ : Shape).Idx → EReal :=
  fun i => entry s e (i 0) (i 1) (i 2)

theorem result_ix3 (s : (⟨3, ![32, 2048, 512]⟩ : Shape).Idx → EReal) (e : (⟨3, ![32, 512, 1024]⟩ : Shape).Idx → EReal)
    (b : Fin 32) (c : Fin 2048) (d : Fin 1024) : result s e (ix3 b c d) = entry s e b c d := rfl

/-- A fold of `max` is at least its starting value, so taking the maximum with that value once more changes nothing. -/
theorem max_start_fold (a : EReal) (f : Fin 512 → EReal) :
    max a ((Finset.univ : Finset (Fin 512)).fold max a f) = (Finset.univ : Finset (Fin 512)).fold max a f :=
  max_eq_right ((Finset.le_fold_max a).2 (Or.inl le_rfl))

end Cert.Attend

end
-- ==== Proof.LibLastAxis.lean ====
/-
  Reductions along the last axis read at an index, on the extended reals (floats as extended reals, operations exact):
  general facts, independent of any program.

  For a matrix `[a, b]` the vector unit's sum and maximum over axis 1 leave one entry per row: at row `p` the sum is the
  sum over the columns `k` of the entry `(p, k)`, and the maximum taken from −∞ is the fold of `max` over those entries.
  For a rank-3 array `[n0, n1, n2]` the host's reduce with a maximum body over axis 2 leaves, at `(b, c)`, the fold of
  `max`, from the initial value's element, over the entries `(b, c, k)`.
-/
import Idealize.ShloMosaic.PureOps.Ideal
import Idealize.ShloMosaic.PureOps.Ideal.Laws
import Idealize.ShloMosaic.Lib.ValueIdx

noncomputable section

open scoped BigOperators

namespace Cert.LibLastAxis

open Idealize.ShloMosaic Idealize.ShloMosaic.ValueIdx

/-- Along axis 1 of a matrix, row `p` with column `k` put back is the entry `(p, k)`. -/
theorem lift_row {a b : ℕ} (hred : (⟨2, ![a, b]⟩ : Shape).Reduces [1] ⟨1, ![a]⟩) (p : Fin a) (k : Fin b) :
    hred.lift (ix1 p) k = ix2 p k := by
  funext ax
  match ax with
  | ⟨0, _⟩ => exact Fin.ext rfl
  | ⟨1, _⟩ => exact Fin.ext rfl

/-- The vector unit's sum over axis 1 of an `[a, b]` vector, from `+0.0`, read at row `p`: the sum over the columns. -/
theorem rowSum_apply {a b : ℕ} (v : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ v 0x00000000#32 hred hφ hacc (ix1 p) = ∑ k : Fin b, v (ix2 p k) :=
  (Ideal.multiReduction_add_single (φ := .f32) v 0x00000000#32 hred hφ hacc (ix1 p)).trans
    (Finset.sum_congr rfl fun k _ => congrArg v (lift_row hred p k))

/-- The vector unit's maximum over axis 1 of an `[a, b]` vector, from −∞, read at row `p`: the fold of `max` over the
    columns, started at the value of the word for −∞. -/
theorem rowMax_apply {a b : ℕ} (v : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32) (p : Fin a) :
    multiReduction (F := Ideal) .maximumf [1] ⟨1, ![a]⟩ v 0xFF800000#32 hred hφ hacc (ix1 p)
      = (Finset.univ : Finset (Fin b)).fold max (Ideal.ofBits .f32 0xFF800000#32) (fun k => v (ix2 p k)) :=
  (Ideal.multiReduction_maximumf_single (φ := .f32) v 0xFF800000#32 hred hφ hacc (ix1 p)).trans
    (congrArg (fun f => Finset.fold max (Ideal.ofBits .f32 0xFF800000#32) f (Finset.univ : Finset (Fin b)))
      (funext fun k => congrArg v (lift_row hred p k)))

/-- Along axis 2 of a rank-3 array, `(b, c)` with coordinate `k` put back is the entry `(b, c, k)`. -/
theorem lift_last3 {n0 n1 n2 : ℕ} (hred : (⟨3, ![n0, n1, n2]⟩ : Shape).Reduces [2] ⟨2, ![n0, n1]⟩)
    (b : Fin n0) (c : Fin n1) (k : Fin n2) : hred.lift (ix2 b c) k = ix3 b c k := by
  funext ax
  match ax with
  | ⟨0, _⟩ => exact Fin.ext rfl
  | ⟨1, _⟩ => exact Fin.ext rfl
  | ⟨2, _⟩ => exact Fin.ext rfl

/-- The host's reduce with a maximum body over axis 2 of an `[n0, n1, n2]` array, read at `(b, c)`: the fold of `max`,
    from the initial value's one element, over the entries `(b, c, k)`. -/
theorem hostMax_last3_apply {n0 n1 n2 : ℕ} (x : FVec Ideal ⟨3, ![n0, n1, n2]⟩ .f32) (init : FVec Ideal ⟨0, ![]⟩ .f32)
    (h' : (⟨3, ![n0, n1, n2]⟩ : Shape).ReducesTo [2] ⟨2, ![n0, n1]⟩)
    (hred : (⟨3, ![n0, n1, n2]⟩ : Shape).Reduces [2] ⟨2, ![n0, n1]⟩)
    (hu : 0 < (⟨0, ![]⟩ : Shape).numel) (b : Fin n0) (c : Fin n1) :
    Host.reduce (FloatOps.maximumf (F := Ideal) (φ := .f32)) x init h' hu (ix2 b c)
      = (Finset.univ : Finset (Fin n2)).fold max (init (Shape.Idx.first hu)) (fun k => x (ix3 b c k)) := by
  rw [Host.reduce_eq_fold_single FloatOps.maximumf x init h' hred hu]
  exact congrArg (fun f => Finset.fold max (init (Shape.Idx.first hu)) f (Finset.univ : Finset (Fin n2)))
    (funext fun k => congrArg x (lift_last3 hred b c k))

end Cert.LibLastAxis

end
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.BodyValue.lean ====
/-
  What the kernel body stores, entry by entry, at the exact (extended-real) values.

  At a grid point the body loads a block of scores `x0` of shape [1, 1024, 512] and a block of encodings `x1` of shape
  [1, 512, 1024] and stores one [1, 1024, 1024] block. Row `r` of the scores goes through the softmax of
  `Cert.Attend`: its largest entry is taken along the row and repeated along it, subtracted, exponentiated, summed along
  the row and divided out; the weights then meet the encodings in a matrix product into a zero accumulator. The two
  roundings to a narrower format before the product are the identity at these values. So the stored entry `(u, r, d)`
  is `Cert.Attend.attend` of row `r` of `x0` and column `d` of `x1`.
-/
import proofs.«114365_j34007551049865_2_alg».proof.Proof.Gen.KernelIdeal.Skeleton
import proofs.«114365_j34007551049865_2_alg».proof.Proof.Attend
import proofs.«114365_j34007551049865_2_alg».proof.Proof.LibLastAxis
import proofs.«114365_j34007551049865_2_alg».proof.Proof.LibKeepdims
import proofs.«114365_j34007551049865_2_alg».proof.Proof.LibDense
import Idealize.ShloMosaic.Lib.ValueLayout

noncomputable section

open scoped BigOperators

namespace Cert.KernelIdeal.Body

open Cert.KernelIdeal Cert.KernelIdeal.Gen Idealize.ShloMosaic Idealize.ShloMosaic.ValueIdx

/-! ## The body's stages, named -/

/-- The block of scores as a [1024, 512] matrix. -/
def scores (x0 : Vec Ideal S1x1024x512 .f32) : FVec Ideal S1024x512 .f32 :=
  shapeCast S1024x512 x0 shapeCasts_S1x1024x512_S1024x512

/-- A per-row value kept as a column and repeated along every row. -/
def alongRow (z : FVec Ideal S1024 .f32) : FVec Ideal S1024x512 .f32 :=
  broadcastTo S1024x512 (shapeCast S1024x1 z shapeCasts_S1024_S1024x1) broadcasts_S1024x1_S1024x512

/-- The exponentials of the scores less their row's largest. -/
def expo (x0 : Vec Ideal S1x1024x512 .f32) : FVec Ideal S1024x512 .f32 :=
  exp (subf (scores x0)
    (alongRow (multiReduction .maximumf [1] S1024 (scores x0) 0xFF800000#32 reduces_S1024x512_S1024 (.inl rfl) rfl)))

/-- The exponentials over their row's sum. -/
def probs (x0 : Vec Ideal S1x1024x512 .f32) : FVec Ideal S1024x512 .f32 :=
  divf (expo x0)
    (alongRow (multiReduction .add [1] S1024 (expo x0) 0x00000000#32 reduces_S1024x512_S1024 (.inl rfl) rfl))

/-- The stored block: the weights times the encodings. -/
def blockOut (x0 : Vec Ideal S1x1024x512 .f32) (x1 : Vec Ideal S1x512x1024 .f32) : FVec Ideal S1x1024x1024 .f32 :=
  shapeCast S1x1024x1024
    (matmul dot_S1024x512_S512x1024_S1024x1024_1_0_0_1_n_n none (truncf .bf16 (probs x0) bitsLt_bf16_f32)
      (truncf .bf16 (shapeCast S512x1024 x1 shapeCasts_S1x512x1024_S512x1024) bitsLt_bf16_f32)
      (constant S1024x1024 .f32 0x00000000#32))
    shapeCasts_S1024x1024_S1x1024x1024

/-- The body's payload is these stages composed. -/
theorem pay_eq (x0 : Vec Ideal S1x1024x512 .f32) (x1 : Vec Ideal S1x512x1024 .f32) :
    k0_pay1 (F := Ideal) x0 x1 = blockOut x0 x1 := rfl

/-! ## Each stage at an index -/

theorem scores_apply (x0 : Vec Ideal S1x1024x512 .f32) (r : Fin 1024) (q : Fin 512) :
    scores x0 (ix2 r q) = x0 (ix3 (0 : Fin 1) r q) :=
  shapeCast_1ab_ab_apply x0 _ r q

theorem alongRow_apply (z : FVec Ideal S1024 .f32) (r : Fin 1024) (q : Fin 512) : alongRow z (ix2 r q) = z (ix1 r) :=
  (broadcastTo_a1_ab_apply _ _ r q).trans (shapeCast_a_a1_apply z _ r (0 : Fin 1))

/-- The row's largest score is `Cert.Attend.rowMax` of the row. -/
theorem rowTop_apply (x0 : Vec Ideal S1x1024x512 .f32) (r : Fin 1024) :
    multiReduction (F := Ideal) .maximumf [1] S1024 (scores x0) 0xFF800000#32 reduces_S1024x512_S1024 (.inl rfl) rfl (ix1 r)
      = Cert.Attend.rowMax (fun k => x0 (ix3 (0 : Fin 1) r k)) :=
  (Cert.LibLastAxis.rowMax_apply (scores x0) reduces_S1024x512_S1024 (.inl rfl) rfl r).trans
    (congrArg (fun f => Finset.fold max (Ideal.ofBits .f32 0xFF800000#32) f (Finset.univ : Finset (Fin 512)))
      (funext fun k => scores_apply x0 r k))

theorem expo_apply (x0 : Vec Ideal S1x1024x512 .f32) (r : Fin 1024) (q : Fin 512) :
    expo x0 (ix2 r q) = Cert.Attend.shifted (fun k => x0 (ix3 (0 : Fin 1) r k)) q := by
  show Ideal.exp (scores x0 (ix2 r q) - alongRow _ (ix2 r q)) = _
  rw [scores_apply, alongRow_apply, rowTop_apply]
  rfl

/-- The row's sum of exponentials. -/
theorem rowTotal_apply (x0 : Vec Ideal S1x1024x512 .f32) (r : Fin 1024) :
    multiReduction (F := Ideal) .add [1] S1024 (expo x0) 0x00000000#32 reduces_S1024x512_S1024 (.inl rfl) rfl (ix1 r)
      = ∑ k : Fin 512, Cert.Attend.shifted (fun k => x0 (ix3 (0 : Fin 1) r k)) k :=
  (Cert.LibLastAxis.rowSum_apply (expo x0) reduces_S1024x512_S1024 (.inl rfl) rfl r).trans
    (Finset.sum_congr rfl fun k _ => expo_apply x0 r k)

theorem probs_apply (x0 : Vec Ideal S1x1024x512 .f32) (r : Fin 1024) (q : Fin 512) :
    probs x0 (ix2 r q) = Cert.Attend.weight (fun k => x0 (ix3 (0 : Fin 1) r k)) q := by
  show Ideal.div (expo x0 (ix2 r q)) (alongRow _ (ix2 r q)) = _
  rw [expo_apply, alongRow_apply, rowTotal_apply]
  rfl

/-! ## Where the product reads its operands -/

/-- The product's dimension numbers: the left operand's columns against the right operand's rows, no batch axis. -/
abbrev D : DotDims S1024x512 S512x1024 S1024x1024 := dot_S1024x512_S512x1024_S1024x1024_1_0_0_1_n_n

theorem left_row (i : S1024x1024.Idx) (k : D.contr.Idx) : (D.lhsIdx i k 0).val = (i 0).val := by
  unfold DotDims.lhsIdx
  rw [dif_neg (show ¬(0 : Fin S1024x512.rank) ∈ D.lhsBatch by decide),
    dif_pos (show (0 : Fin S1024x512.rank) ∈ D.lhsNonContracting by decide)]
  rfl

theorem left_col (i : S1024x1024.Idx) (k : D.contr.Idx) : (D.lhsIdx i k 1).val = (k ⟨0, by decide⟩).val :=
  D.lhsIdx_val_of_single rfl i k

theorem right_row (i : S1024x1024.Idx) (k : D.contr.Idx) : (D.rhsIdx i k 0).val = (k ⟨0, by decide⟩).val :=
  D.rhsIdx_val_of_single rfl i k

theorem right_col (i : S1024x1024.Idx) (k : D.contr.Idx) : (D.rhsIdx i k 1).val = (i 1).val := by
  unfold DotDims.rhsIdx
  rw [dif_neg (show ¬(1 : Fin S512x1024.rank) ∈ D.rhsBatch by decide),
    dif_pos (show (1 : Fin S512x1024.rank) ∈ D.rhsNonContracting by decide)]
  rfl

/-! ## The stored block at an index -/

/-- Entry `(u, r, d)` of the stored block: row `r` of the scores, softmaxed, against column `d` of the encodings. -/
theorem blockOut_apply (x0 : Vec Ideal S1x1024x512 .f32) (x1 : Vec Ideal S1x512x1024 .f32)
    (u : Fin 1) (r : Fin 1024) (d : Fin 1024) :
    blockOut x0 x1 (ix3 u r d)
      = Cert.Attend.attend (fun q => x0 (ix3 (0 : Fin 1) r q)) (fun q => x1 (ix3 (0 : Fin 1) q d)) := by
  refine (shapeCast_ab_1ab_apply _ _ u r d).trans ?_
  refine (matmul_zero_plain_apply D none rfl rfl left_row left_col right_row right_col _ _ r d).trans ?_
  refine Finset.sum_congr rfl fun q _ => ?_
  show probs x0 (ix2 r q) * shapeCast S512x1024 x1 shapeCasts_S1x512x1024_S512x1024 (ix2 q d) = _
  rw [probs_apply, shapeCast_1ab_ab_apply]

/-- The payload at any index of the block, by its coordinates. -/
theorem payload_entry (x0 : Vec Ideal S1x1024x512 .f32) (x1 : Vec Ideal S1x512x1024 .f32) (j : S1x1024x1024.Idx) :
    k0_pay1 (F := Ideal) x0 x1 j
      = Cert.Attend.attend (fun q => x0 (ix3 (0 : Fin 1) (j 1) q)) (fun q => x1 (ix3 (0 : Fin 1) q (j 2))) := by
  obtain ⟨u, r, d, rfl⟩ : ∃ (u : Fin 1) (r : Fin 1024) (d : Fin 1024), j = ix3 u r d := ⟨j 0, j 1, j 2, eq_ix3 j⟩
  rw [pay_eq]
  exact blockOut_apply x0 x1 u r d

end Cert.KernelIdeal.Body

end
-- ==== Proof.KernelValue.lean ====
/-
  From blocks to the whole array, at the exact (extended-real) values.

  The grid has 32 × 2 points. Point `(b, h)` reads rows `1024·h … 1024·h + 1023` of batch `b` of the scores (all 512
  columns), all of batch `b` of the encodings, and writes rows `1024·h … 1024·h + 1023` of batch `b` of the result (all
  1024 columns). An entry of the written block depends only on its own row of the scores and its own column of the
  encodings, and both lie in the blocks the point reads; so what the point writes is the same block of
  `Cert.Attend.result` of the whole argument arrays. Every index of the result lies in the block of exactly the point
  `(b, row / 1024)`, so after the run the result array is `Cert.Attend.result` of the arguments.
-/
import proofs.«114365_j34007551049865_2_alg».proof.Proof.Gen.KernelIdeal.Value
import proofs.«114365_j34007551049865_2_alg».proof.Proof.BodyValue

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offsets_zero : (![0, 0, 0] : Fin 3 → Nat) = fun _ => 0 := funext fun a => by fin_cases a <;> rfl

/-- How the three windows' block indices are related at every grid point: the scores' block moves with the result's on
    the batch and row-block axes and takes every column; the encodings' block moves with the result's on the batch axis
    and takes every row and column; the result's block takes every column. -/
theorem index_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0
    ∧ win0_1.index t (2 : Fin 3) = 0
    ∧ win0_2.index t (2 : Fin 3) = 0 :=
  (by decide +kernel : ∀ t : Fin grid0.N, _)

/-- Every (batch, row-block) pair is some grid point's. -/
theorem index_onto : ∀ (b : Fin 32) (h : Fin 2), ∃ t : Fin cfg0.N, win0_2.index t = ![b.val, h.val, 0] :=
  (by decide +kernel : ∀ (b : Fin 32) (h : Fin 2), ∃ t : Fin grid0.N, win0_2.index t = ![b.val, h.val, 0])

/-- What point `t` writes back is block `t` of `Cert.Attend.result` of the argument arrays. -/
theorem flushed_eq (c : Dev nD) (t : Fin cfg0.N) :
    (dats m 0 c).flushed 2 t
      = ((cfg0.win 2).blk t).view.read (Elt Ideal) (Cert.Attend.result (V m c main_arg0) (V m c main_arg1)) := by
  rw [flushed2]
  unfold out0_2
  rw [View.canon_unit_zero offsets_zero]
  simp only [View.ld_unit_zero (S := S1x1024x512) offsets_zero, View.ld_unit_zero (S := S1x512x1024) offsets_zero]
  obtain ⟨e00, e01, e02, e10, e11, e12, e22⟩ := index_facts t
  funext j
  show k0_pay1 (iblk m c 0 t) (iblk m c 1 t) j
    = Cert.Attend.result (V m c main_arg0) (V m c main_arg1) (((cfg0.win 2).blk t).view.emb j)
  refine (Cert.KernelIdeal.Body.payload_entry _ _ j).trans ?_
  unfold Cert.Attend.result Cert.Attend.entry
  have hj0 : (j 0).val < 1 := (j 0).isLt
  refine congr (congrArg Cert.Attend.attend (funext fun q => ?_)) (funext fun q => ?_)
  · show V m c main_arg0 (((cfg0.win 0).blk t).view.emb _) = V m c main_arg0 (ix3 _ _ q)
    refine congrArg _ (funext fun a => Fin.ext ?_)
    match a with
    | ⟨0, _⟩ =>
      show win0_0.index t (0 : Fin 3) * 1 + 1 * 0 = win0_2.index t (0 : Fin 3) * 1 + 1 * (j 0).val
      omega
    | ⟨1, _⟩ =>
      show win0_0.index t (1 : Fin 3) * 1024 + 1 * (j 1).val = win0_2.index t (1 : Fin 3) * 1024 + 1 * (j 1).val
      omega
    | ⟨2, _⟩ =>
      show win0_0.index t (2 : Fin 3) * 512 + 1 * q.val = q.val
      omega
  · show V m c main_arg1 (((cfg0.win 1).blk t).view.emb _) = V m c main_arg1 (ix3 _ q _)
    refine congrArg _ (funext fun a => Fin.ext ?_)
    match a with
    | ⟨0, _⟩ =>
      show win0_1.index t (0 : Fin 3) * 1 + 1 * 0 = win0_2.index t (0 : Fin 3) * 1 + 1 * (j 0).val
      omega
    | ⟨1, _⟩ =>
      show win0_1.index t (1 : Fin 3) * 512 + 1 * q.val = q.val
      omega
    | ⟨2, _⟩ =>
      show win0_1.index t (2 : Fin 3) * 1024 + 1 * (j 2).val = win0_2.index t (2 : Fin 3) * 1024 + 1 * (j 2).val
      omega

/-- An index of the result array is in point `t`'s block iff each coordinate is in the block's range on its axis. -/
theorem mem_block (t : Fin cfg0.N) (i : S32x2048x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0).slice (win0_2.rect t)).set ↔ _
  rw [View.set_slice_whole, Rect.mem_set_unit]
  exact Iff.rfl

/-- Every index of the result array is in the block of the point of its batch and of its row's block of 1024. -/
theorem covered (i : S32x2048x1024.Idx) :
    ∃ t : Fin cfg0.N, (cfg0.win 2).flush t = true ∧ i ∈ ((cfg0.win 2).blk t).view.set := by
  have h0 : (i 0).val < 32 := (i 0).isLt
  have h1 : (i 1).val < 2048 := (i 1).isLt
  have h2 : (i 2).val < 1024 := (i 2).isLt
  obtain ⟨t, ht⟩ := index_onto ⟨(i 0).val, h0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 1024 ≤ (i 2).val ∧ (i 2).val < win0_2.index t (2 : Fin 3) * 1024 + 1024
    omega

/-- The result array after the run is `Cert.Attend.result` of the argument arrays. -/
theorem final (c : Dev nD) :
    (dats m 0 c).arrAt 2 cfg0.N
      = Cert.Attend.result (m ((c : Thread nD τ).loc main_arg0)) (m ((c : Thread nD τ).loc main_arg1)) :=
  (dats m 0 c).arrAt_eq_of_cover 2 _ (fun t _ => flushed_eq m c t) covered

/-- The kernel's run, read: the result array at `Cert.Attend.result` of the arguments, the arguments unchanged. -/
theorem run : θ_run defs (onTc (τ := τ) (main (F := Ideal))) ⟨m, fun _ => 0, ρ⟩ fun r => ∀ c : Dev nD,
      r.2.mem ((c : Thread nD τ).loc main_v0)
        = Cert.Attend.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.ReferenceValue.lean ====
/-
  The reference's result, entry by entry, at the exact (extended-real) values.

  The reference takes the largest score of each row `(b, c, ·)` by a reduce from −∞ and then once more the maximum with −∞
  (which changes nothing: a fold of `max` is at least its starting value), repeats it along the row, subtracts,
  exponentiates, sums along the row from zero, divides, and contracts position `q` of the weights with position `q` of
  the encodings of the same batch `b`. Read one operation at a time this is `Cert.Attend.result` of the two arguments.
-/
import proofs.«114365_j34007551049865_2_alg».proof.Proof.Gen.ReferenceIdeal.Read
import proofs.«114365_j34007551049865_2_alg».proof.Proof.Attend
import proofs.«114365_j34007551049865_2_alg».proof.Proof.LibLastAxis

noncomputable section

open scoped BigOperators

namespace Cert.ReferenceIdeal.Whole

open Cert.ReferenceIdeal Cert.ReferenceIdeal.Gen Cert.ReferenceIdeal.Read Idealize.ShloMosaic Idealize.ShloMosaic.ValueIdx

/-! ## Where each layout operation reads, at indices written by their coordinates -/

theorem row_of_entry (b : Fin 32) (c : Fin 2048) (q : Fin 512) : idx_main_v3 (idx_main_v4 (ix3 b c q)) = ix2 b c :=
  funext fun a => Fin.ext (by match a with | ⟨0, _⟩ => rfl | ⟨1, _⟩ => rfl)

theorem row_of_entry' (b : Fin 32) (c : Fin 2048) (q : Fin 512) : idx_main_v8 (idx_main_v9 (ix3 b c q)) = ix2 b c :=
  funext fun a => Fin.ext (by match a with | ⟨0, _⟩ => rfl | ⟨1, _⟩ => rfl)

theorem entry_of_row (b : Fin 32) (c : Fin 2048) (k : Fin 512) : idx_main_v7 (ix2 b c) k = ix3 b c k :=
  funext fun a => Fin.ext (by match a with | ⟨0, _⟩ => rfl | ⟨1, _⟩ => rfl | ⟨2, _⟩ => rfl)

theorem left_of_out (b : Fin 32) (c : Fin 2048) (d : Fin 1024) (k : Fin 512) : lidx_main_v11 (ix3 b c d) k = ix3 b c k :=
  funext fun a => Fin.ext (by match a with | ⟨0, _⟩ => rfl | ⟨1, _⟩ => rfl | ⟨2, _⟩ => rfl)

theorem right_of_out (b : Fin 32) (c : Fin 2048) (d : Fin 1024) (k : Fin 512) : ridx_main_v11 (ix3 b c d) k = ix3 b k d :=
  funext fun a => Fin.ext (by match a with | ⟨0, _⟩ => rfl | ⟨1, _⟩ => rfl | ⟨2, _⟩ => rfl)

/-! ## The stages at an index -/

/-- The row's largest score: the reduce from −∞, and the maximum with −∞ once more, are `Cert.Attend.rowMax`. -/
theorem top_apply (x0 : (⟨S32x2048x512, .f32⟩ : BufTy).Contents (Elt Ideal)) (b : Fin 32) (c : Fin 2048) :
    val_main_v2 (F := Ideal) x0 (ix2 b c) = Cert.Attend.rowMax (fun k => x0 (ix3 b c k)) := by
  rw [val_main_v2_apply, val_main_v1_apply, val_main_cst_0_apply]
  unfold val_main_v0
  rw [Cert.LibLastAxis.hostMax_last3_apply x0 _ reducesTo_S32x2048x512_S32x2048_d2 (by decide) h_S_ b c, val_main_cst_apply]
  exact Cert.Attend.max_start_fold _ _

theorem shifted_apply (x0 : (⟨S32x2048x512, .f32⟩ : BufTy).Contents (Elt Ideal)) (b : Fin 32) (c : Fin 2048) (q : Fin 512) :
    val_main_v6 (F := Ideal) x0 (ix3 b c q) = Cert.Attend.shifted (fun k => x0 (ix3 b c k)) q := by
  rw [val_main_v6_apply, val_main_v5_apply, val_main_v4_apply, val_main_v3_apply, row_of_entry, top_apply]
  rfl

/-- The row's sum of exponentials, from zero. -/
theorem total_apply (x0 : (⟨S32x2048x512, .f32⟩ : BufTy).Contents (Elt Ideal)) (b : Fin 32) (c : Fin 2048) :
    val_main_v7 (F := Ideal) x0 (ix2 b c) = ∑ k : Fin 512, Cert.Attend.shifted (fun k => x0 (ix3 b c k)) k := by
  rw [val_main_v7_apply, val_main_cst_1_apply]
  show Ideal.ofBits .f32 0x00000000#32 + _ = _
  rw [Ideal.ofBits_zero_f32, zero_add]
  refine Finset.sum_congr rfl fun k _ => ?_
  rw [entry_of_row]
  exact shifted_apply x0 b c k

theorem weight_apply (x0 : (⟨S32x2048x512, .f32⟩ : BufTy).Contents (Elt Ideal)) (b : Fin 32) (c : Fin 2048) (q : Fin 512) :
    val_main_v10 (F := Ideal) x0 (ix3 b c q) = Cert.Attend.weight (fun k => x0 (ix3 b c k)) q := by
  rw [val_main_v10_apply, val_main_v9_apply, val_main_v8_apply, row_of_entry', total_apply, shifted_apply]
  rfl

/-! ## The result -/

/-- The reference's last stage is `Cert.Attend.result` of its two arguments. -/
theorem result_eq (x0 : (⟨S32x2048x512, .f32⟩ : BufTy).Contents (Elt Ideal)) (x1 : (⟨S32x512x1024, .f32⟩ : BufTy).Contents (Elt Ideal)) :
    val_main_v11 (F := Ideal) x0 x1 = Cert.Attend.result x0 x1 := by
  funext i
  obtain ⟨b, c, d, rfl⟩ : ∃ (b : Fin 32) (c : Fin 2048) (d : Fin 1024), i = ix3 b c d := ⟨i 0, i 1, i 2, eq_ix3 i⟩
  rw [val_main_v11_apply, Cert.Attend.result_ix3]
  show ∑ k : Fin 512, _ = ∑ q : Fin 512, Cert.Attend.weight (fun k => x0 (ix3 b c k)) q * x1 (ix3 b q d)
  refine Finset.sum_congr rfl fun q _ => ?_
  rw [left_of_out, right_of_out, weight_apply]

end Cert.ReferenceIdeal.Whole

end
-- ==== Proof.lean ====
/-
  Context-to-query attention: a row softmax of the similarity scores followed by a batched product with the question
  encodings, `out[b, c, d] = Σ_q softmax(S[b, c, ·])[q] · E[b, q, d]`, for S of shape [32, 2048, 512] and E of shape
  [32, 512, 1024].

  The kernel works on blocks of 1024 rows of one batch: it takes each row's largest score, subtracts it, exponentiates,
  divides by the row's sum and multiplies the weights into the batch's encodings (rounding both operands to a narrower
  format first, which at the exact values is the identity). The reference does the same on whole arrays, taking the
  maximum with −∞ once more after its reduce and contracting with one batched product. At the exact (extended-real) values
  both results are the one function `Cert.Attend.result` of the arguments, entry by entry: the kernel's by reading each
  stored block at an index and tiling the array with the blocks (`Cert.KernelIdeal.Whole.run`), the reference's by reading
  its operations one at a time (`Cert.ReferenceIdeal.Whole.result_eq`). The only law used between the two is that a fold
  of `max` is at least its starting value; sums and maxima are otherwise taken over the same entries on both sides, so
  the finiteness of the inputs is never needed.

  The three frames are the generated frame runs (the reference's is its generated run with the result dropped), and the
  idealization rewrote no operation, so there is nothing to preserve.
-/
import proofs.«114365_j34007551049865_2_alg».proof.Defs
import proofs.«114365_j34007551049865_2_alg».proof.Proof.Gen.Kernel
import proofs.«114365_j34007551049865_2_alg».proof.Proof.Gen.Kernel.Skeleton
import proofs.«114365_j34007551049865_2_alg».proof.Proof.Gen.Kernel.Launch
import proofs.«114365_j34007551049865_2_alg».proof.Proof.Gen.Kernel.Points
import proofs.«114365_j34007551049865_2_alg».proof.Proof.Gen.Kernel.Frame
import proofs.«114365_j34007551049865_2_alg».proof.Proof.Gen.KernelIdeal
import proofs.«114365_j34007551049865_2_alg».proof.Proof.Gen.KernelIdeal.Skeleton
import proofs.«114365_j34007551049865_2_alg».proof.Proof.Gen.KernelIdeal.Launch
import proofs.«114365_j34007551049865_2_alg».proof.Proof.Gen.KernelIdeal.Points
import proofs.«114365_j34007551049865_2_alg».proof.Proof.Gen.KernelIdeal.Frame
import proofs.«114365_j34007551049865_2_alg».proof.Proof.Gen.ReferenceIdeal
import proofs.«114365_j34007551049865_2_alg».proof.Proof.Gen.Pre_finite_inputs
import proofs.«114365_j34007551049865_2_alg».proof.Proof.Gen.KernelIdeal.Value
import proofs.«114365_j34007551049865_2_alg».proof.Proof.Gen.ReferenceIdeal.Run
import proofs.«114365_j34007551049865_2_alg».proof.Proof.Gen.ReferenceIdeal.Read
import proofs.«114365_j34007551049865_2_alg».proof.Proof.KernelValue
import proofs.«114365_j34007551049865_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments, the kernel's result array and the reference's both end at
    `Cert.Attend.result` of the arguments. -/
theorem algebraic : Cert.algebraic_KernelIdeal_ReferenceIdeal := by
  intro m ρ m' ρ' _ hagree
  refine ⟨fun c => Cert.Attend.result (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.Whole.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
